-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x2 : Shape := ⟨3, ![128, 4096, 2]⟩
abbrev S128x4096 : Shape := ⟨2, ![128, 4096]⟩
abbrev S64x2 : Shape := ⟨2, ![64, 2]⟩
abbrev S_ : Shape := ⟨0, ![]⟩

class Facts : Prop where
  bcast_S_S128x4096x2 : S_.BroadcastsInDim S128x4096x2 (![] : Fin 0 → Fin S128x4096x2.rank)
  reducesTo_S128x4096x2_S_d0_1_2 : S128x4096x2.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S64x2 : S_.BroadcastsInDim S64x2 (![] : Fin 0 → Fin S64x2.rank)
  reducesTo_S64x2_S_d0_1 : S64x2.ReducesTo [0, 1] S_

variable [Facts]

def fn_part1 {F : FTy → Type} [FloatOps F] (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  main_v18

def fn {F : FTy → Type} [FloatOps F] (main_arg0 : FVec F S128x4096x2 .f32) (main_arg1 : FVec F S128x4096 .f32) (main_arg2 : FVec F S64x2 .f32) (main_arg3 : FVec F S64x2 .f32) : IVec S_ 1 :=
  let main_v0 : FVec F S128x4096x2 .f32 := Host.absf main_arg0
  let main_cst : FVec F S_ .f32 := constant S_ .f32 0x7F800000#32
  let main_v1 : FVec F S128x4096x2 .f32 := broadcastInDim S128x4096x2 ![] bcast_S_S128x4096x2 main_cst
  let main_v2 : IVec S128x4096x2 1 := cmpf .olt main_v0 main_v1
  let main_c : IVec S_ 1 := constantI S_ 1 1#1
  let main_v3 : IVec S_ 1 := (fun x v => Host.reduce IntOp.andi x v reducesTo_S128x4096x2_S_d0_1_2 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_v13 main_v16
-- ==== Kernel.lean ====
abbrev S128x4096x2 : Shape := ⟨3, ![128, 4096, 2]⟩
abbrev S128x4096 : Shape := ⟨2, ![128, 4096]⟩
abbrev S64x2 : Shape := ⟨2, ![64, 2]⟩
abbrev S_ : Shape := ⟨0, ![]⟩
abbrev S2x64 : Shape := ⟨2, ![2, 64]⟩
abbrev S4x64 : Shape := ⟨2, ![4, 64]⟩
abbrev S64 : Shape := ⟨1, ![64]⟩
abbrev S1x64 : Shape := ⟨2, ![1, 64]⟩
abbrev S128x64 : Shape := ⟨2, ![128, 64]⟩
abbrev S64x128x2 : Shape := ⟨3, ![64, 128, 2]⟩
abbrev S64x128 : Shape := ⟨2, ![64, 128]⟩
abbrev S64x64 : Shape := ⟨2, ![64, 64]⟩
abbrev S64x128x4 : Shape := ⟨3, ![64, 128, 4]⟩
abbrev S8192x4 : Shape := ⟨2, ![8192, 4]⟩
abbrev S8192x64 : Shape := ⟨2, ![8192, 64]⟩
abbrev S64x128x64 : Shape := ⟨3, ![64, 128, 64]⟩
abbrev S1x1x64 : Shape := ⟨3, ![1, 1, 64]⟩
abbrev S64x128x1 : Shape := ⟨3, ![64, 128, 1]⟩

abbrev nBuf : Space → Nat
  | .hbm => 18
  | .vmem => 8
  | .smem => 0
  | _ => 0

abbrev bufTy : (tb : Table) → Fin (tcTables nBuf tb) → BufTy
  | .hbm, ⟨0, _⟩ => ⟨S128x4096x2, .f32⟩
  | .hbm, ⟨1, _⟩ => ⟨S128x4096, .f32⟩
  | .hbm, ⟨2, _⟩ => ⟨S64x2, .f32⟩
  | .hbm, ⟨3, _⟩ => ⟨S64x2, .f32⟩
  | .hbm, ⟨4, _⟩ => ⟨S64x2, .f32⟩
  | .hbm, ⟨5, _⟩ => ⟨S_, .f32⟩
  | .hbm, ⟨6, _⟩ => ⟨S64x2, .f32⟩
  | .hbm, ⟨7, _⟩ => ⟨S64x2, .f32⟩
  | .hbm, ⟨8, _⟩ => ⟨S64x2, .f32⟩
  | .hbm, ⟨9, _⟩ => ⟨S2x64, .f32⟩
  | .hbm, ⟨10, _⟩ => ⟨S2x64, .f32⟩
  | .hbm, ⟨11, _⟩ => ⟨S4x64, .f32⟩
  | .hbm, ⟨12, _⟩ => ⟨S64x2, .f32⟩
  | .hbm, ⟨13, _⟩ => ⟨S64x2, .f32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S128x64, .f32⟩
  | .local _ .vmem, ⟨0, _⟩ => ⟨S64x128x2, .f32⟩
  | .local _ .vmem, ⟨1, _⟩ => ⟨S64x128x2, .f32⟩
  | .local _ .vmem, ⟨2, _⟩ => ⟨S64x128, .f32⟩
  | .local _ .vmem, ⟨3, _⟩ => ⟨S64x128, .f32⟩
  | .local _ .vmem, ⟨4, _⟩ => ⟨S4x64, .f32⟩
  | .local _ .vmem, ⟨5, _⟩ => ⟨S1x64, .f32⟩
  | .local _ .vmem, ⟨6, _⟩ => ⟨S64x64, .f32⟩
  | .local _ .vmem, ⟨7, _⟩ => ⟨S64x64, .f32⟩
  | _, _ => ⟨S128x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S64x2 : S_.BroadcastsInDim S64x2 (![] : Fin 0 → Fin S64x2.rank)
  transposes_S64x2_S2x64_1_0 : S64x2.Transposes [1, 0] S2x64
  concatenates_S2x64_S2x64_S4x64_d0 : Shape.Concatenates [S2x64, S2x64] S4x64 0
  reducesTo_S64x2_S64_d1 : S64x2.ReducesTo [1] S64
  h_S_ : 0 < S_.numel
  bcast_S64_S1x64_1 : S64.BroadcastsInDim S1x64 (![1] : Fin 1 → Fin S1x64.rank)
  inb_S64x64_S64x64_0_0 : ∀ a, (![0, 0] : Fin 2 → Nat) a + S64x64.size a ≤ S64x64.size a
  h_S64x64 : 0 < S64x64.numel
  inb_S64x128x2_S64x128x2_0_0_0 : ∀ a, (![0, 0, 0] : Fin 3 → Nat) a + S64x128x2.size a ≤ S64x128x2.size a
  h_S64x128x2 : 0 < S64x128x2.numel
  inb_S64x128_S64x128_0_0 : ∀ a, (![0, 0] : Fin 2 → Nat) a + S64x128.size a ≤ S64x128.size a
  h_S64x128 : 0 < S64x128.numel
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  concatenates_S64x128x2_S64x128x2_S64x128x4_d2 : Shape.Concatenates [S64x128x2, S64x128x2] S64x128x4 2
  shapeCasts_S64x128x4_S8192x4 : S64x128x4.ShapeCasts S8192x4
  bitsLt_bf16_f32 : FTy.bits .bf16 < FTy.bits .f32
  shapeCasts_S8192x64_S64x128x64 : S8192x64.ShapeCasts S64x128x64
  shapeCasts_S1x64_S1x1x64 : S1x64.ShapeCasts S1x1x64
  broadcasts_S1x1x64_S64x128x64 : S1x1x64.Broadcasts S64x128x64
  shapeCasts_S64x128_S64x128x1 : S64x128.ShapeCasts S64x128x1
  broadcasts_S64x128x1_S64x128x64 : S64x128x1.Broadcasts S64x128x64
  reduces_S64x128x64_S64x64 : S64x128x64.Reduces [1] S64x64
  shapeCasts_S64x64_S64x64 : S64x64.ShapeCasts S64x64
  dot_S8192x4_S4x64_S8192x64_1_0_0_1_n_n_wf : DotDims.WF S8192x4 S4x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x2.size a ≤ S128x4096x2.size a
  hwx0_0 : ∀ i : grid0.Coords, EltTy.bits .f32 = 32 ∨ (Rect.block (s := S128x4096x2) S64x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S128x4096.size a
  hwx0_1 : ∀ i : grid0.Coords, EltTy.bits .f32 = 32 ∨ (Rect.block (s := S128x4096) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S128x64.size a
  hwx0_4 : ∀ i : grid0.Coords, EltTy.bits .f32 = 32 ∨ (Rect.block (s := S128x64) S64x64.size (cc0_transform_4 i) (hinb0_4 i)).WholeWords (EltTy.packing .f32)

variable [Facts₀]

def dot_S8192x4_S4x64_S8192x64_1_0_0_1_n_n : DotDims S8192x4 S4x64 S8192x64 where
  lhsContracting := [1]
  rhsContracting := [0]
  lhsNonContracting := [0]
  rhsNonContracting := [1]
  lhsBatch := []
  rhsBatch := []
  wf := dot_S8192x4_S4x64_S8192x64_1_0_0_1_n_n_wf

abbrev win0_0 : Pipeline.Window sig grid0 :=
  Pipeline.Window.ofSpec (Memref.whole main_arg0) S64x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x4096x2 : Shape := ⟨3, ![128, 4096, 2]⟩
abbrev S128x4096 : Shape := ⟨2, ![128, 4096]⟩
abbrev S64x2 : Shape := ⟨2, ![64, 2]⟩
abbrev S1x64x1x2 : Shape := ⟨4, ![1, 64, 1, 2]⟩
abbrev S128x1x4096x2 : Shape := ⟨4, ![128, 1, 4096, 2]⟩
abbrev S128x64x4096x2 : Shape := ⟨4, ![128, 64, 4096, 2]⟩
abbrev S_ : Shape := ⟨0, ![]⟩
abbrev S128x64x4096 : Shape := ⟨3, ![128, 64, 4096]⟩
abbrev S128x1x4096 : Shape := ⟨3, ![128, 1, 4096]⟩
abbrev S128x64 : Shape := ⟨2, ![128, 64]⟩

abbrev nBuf : Space → Nat
  | .hbm => 23
  | .vmem => 0
  | .smem => 0
  | _ => 0

abbrev bufTy : (tb : Table) → Fin (tcTables nBuf tb) → BufTy
  | .hbm, ⟨0, _⟩ => ⟨S128x4096x2, .f32⟩
  | .hbm, ⟨1, _⟩ => ⟨S128x4096, .f32⟩
  | .hbm, ⟨2, _⟩ => ⟨S64x2, .f32⟩
  | .hbm, ⟨3, _⟩ => ⟨S64x2, .f32⟩
  | .hbm, ⟨4, _⟩ => ⟨S1x64x1x2, .f32⟩
  | .hbm, ⟨5, _⟩ => ⟨S128x1x4096x2, .f32⟩
  | .hbm, ⟨6, _⟩ => ⟨S128x64x4096x2, .f32⟩
  | .hbm, ⟨7, _⟩ => ⟨S128x64x4096x2, .f32⟩
  | .hbm, ⟨8, _⟩ => ⟨S128x64x4096x2, .f32⟩
  | .hbm, ⟨9, _⟩ => ⟨S128x64x4096x2, .f32⟩
  | .hbm, ⟨10, _⟩ => ⟨S64x2, .f32⟩
  | .hbm, ⟨11, _⟩ => ⟨S1x64x1x2, .f32⟩
  | .hbm, ⟨12, _⟩ => ⟨S128x64x4096x2, .f32⟩
  | .hbm, ⟨13, _⟩ => ⟨S128x64x4096x2, .f32⟩
  | .hbm, ⟨14, _⟩ => ⟨S_, .f32⟩
  | .hbm, ⟨15, _⟩ => ⟨S128x64x4096, .f32⟩
  | .hbm, ⟨16, _⟩ => ⟨S128x64x4096, .f32⟩
  | .hbm, ⟨17, _⟩ => ⟨S128x64x4096, .f32⟩
  | .hbm, ⟨18, _⟩ => ⟨S128x1x4096, .f32⟩
  | .hbm, ⟨19, _⟩ => ⟨S128x64x4096, .f32⟩
  | .hbm, ⟨20, _⟩ => ⟨S128x64x4096, .f32⟩
  | .hbm, ⟨21, _⟩ => ⟨S_, .f32⟩
  | .hbm, ⟨22, _⟩ => ⟨S128x64, .f32⟩
  | _, _ => ⟨S128x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S64x2_S1x64x1x2_1_3 : S64x2.BroadcastsInDim S1x64x1x2 (![1, 3] : Fin 2 → Fin S1x64x1x2.rank)
  bcast_S128x4096x2_S128x1x4096x2_0_2_3 : S128x4096x2.BroadcastsInDim S128x1x4096x2 (![0, 2, 3] : Fin 3 → Fin S128x1x4096x2.rank)
  bcast_S1x64x1x2_S128x64x4096x2_0_1_2_3 : S1x64x1x2.BroadcastsInDim S128x64x4096x2 (![0, 1, 2, 3] : Fin 4 → Fin S128x64x4096x2.rank)
  bcast_S128x1x4096x2_S128x64x4096x2_0_1_2_3 : S128x1x4096x2.BroadcastsInDim S128x64x4096x2 (![0, 1, 2, 3] : Fin 4 → Fin S128x64x4096x2.rank)
  reducesTo_S128x64x4096x2_S128x64x4096_d3 : S128x64x4096x2.ReducesTo [3] S128x64x4096
  h_S_ : 0 < S_.numel
  bcast_S128x4096_S128x1x4096_0_2 : S128x4096.BroadcastsInDim S128x1x4096 (![0, 2] : Fin 2 → Fin S128x1x4096.rank)
  bcast_S128x1x4096_S128x64x4096_0_1_2 : S128x1x4096.BroadcastsInDim S128x64x4096 (![0, 1, 2] : Fin 3 → Fin S128x64x4096.rank)
  reducesTo_S128x64x4096_S128x64_d2 : S128x64x4096.ReducesTo [2] S128x64

variable [Facts₀]

class Facts : Prop extends Facts₀ where

variable [Facts]
-- ==== Proof.Payload.lean ====
/-
  One grid point's arithmetic, read at an output index.

  At a grid point the kernel holds a block `x0 : [64, 128, 2]` of the batch (64 multisets, 128 points), the matching
  block `x1 : [64, 128]` of the mask, the coefficient matrix `x2 : [4, 64]`, the offsets `x3 : [1, 64]` and the
  accumulator block `acc : [64, 64]`. It lays the features `(x₀, x₁, x₀², x₁²)` of each point side by side, flattens
  (multiset, point) to one row index `128 q + pp`, multiplies by the coefficients (a contraction over the four
  features), unflattens, adds the offset of the centre, negates, exponentiates, multiplies by the mask and sums over
  the 128 points. Read at multiset `q` and centre `n` the result is

      acc q n + Σ_pp exp (0 - ((x₀·W 0 n + x₁·W 1 n + x₀²·W 2 n + x₁²·W 3 n) + β n)) · mask q pp.

  Each step below reads one operation at an index: the reshapes keep the row-major position, the concatenation picks
  its first piece below feature 2 and its second from there on, the two broadcasts drop the axes they add.
-/
import proofs.«181590_j6545530159284_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The flattened row `128 q + pp` of multiset `q`, point `pp`. -/
abbrev flat (q : Fin 64) (pp : Fin 128) : Fin 8192 := ⟨128 * q.val + pp.val, by omega⟩

/-! ## The contraction's operand indices -/

theorem lhs_0 (i : S8192x64.Idx) (k : dot_S8192x4_S4x64_S8192x64_1_0_0_1_n_n.contr.Idx) :
    (dot_S8192x4_S4x64_S8192x64_1_0_0_1_n_n.lhsIdx i k 0).val = (i 0).val := by
  unfold DotDims.lhsIdx
  rw [dif_neg (show ¬(0 : Fin S8192x4.rank) ∈ dot_S8192x4_S4x64_S8192x64_1_0_0_1_n_n.lhsBatch by decide),
    dif_pos (show (0 : Fin S8192x4.rank) ∈ dot_S8192x4_S4x64_S8192x64_1_0_0_1_n_n.lhsNonContracting by decide)]
  rfl

theorem lhs_1 (i : S8192x64.Idx) (k : dot_S8192x4_S4x64_S8192x64_1_0_0_1_n_n.contr.Idx) :
    (dot_S8192x4_S4x64_S8192x64_1_0_0_1_n_n.lhsIdx i k 1).val = (k ⟨0, by decide⟩).val :=
  dot_S8192x4_S4x64_S8192x64_1_0_0_1_n_n.lhsIdx_val_of_single rfl i k

theorem rhs_0 (i : S8192x64.Idx) (k : dot_S8192x4_S4x64_S8192x64_1_0_0_1_n_n.contr.Idx) :
    (dot_S8192x4_S4x64_S8192x64_1_0_0_1_n_n.rhsIdx i k 0).val = (k ⟨0, by decide⟩).val :=
  dot_S8192x4_S4x64_S8192x64_1_0_0_1_n_n.rhsIdx_val_of_single rfl i k

theorem rhs_1 (i : S8192x64.Idx) (k : dot_S8192x4_S4x64_S8192x64_1_0_0_1_n_n.contr.Idx) :
    (dot_S8192x4_S4x64_S8192x64_1_0_0_1_n_n.rhsIdx i k 1).val = (i 1).val := by
  unfold DotDims.rhsIdx
  rw [dif_neg (show ¬(1 : Fin S4x64.rank) ∈ dot_S8192x4_S4x64_S8192x64_1_0_0_1_n_n.rhsBatch by decide),
    dif_pos (show (1 : Fin S4x64.rank) ∈ dot_S8192x4_S4x64_S8192x64_1_0_0_1_n_n.rhsNonContracting by decide)]
  rfl

/-- The product into a zero accumulator, at row `r` and centre `n`: the sum over the four features. -/
theorem matmul_at (A : FVec Ideal S8192x4 .bf16) (B : FVec Ideal S4x64 .bf16) (r : Fin 8192) (n : Fin 64) :
    matmul dot_S8192x4_S4x64_S8192x64_1_0_0_1_n_n none A B (constant (F := Ideal) S8192x64 .f32 0x00000000#32) (ix2 r n)
      = ∑ k : Fin 4, A (ix2 r k) * B (ix2 k n) := by
  simp only [matmul]
  rw [Ideal.matmul_constant_zero_apply,
    ← Equiv.sum_comp (contrEquiv1 dot_S8192x4_S4x64_S8192x64_1_0_0_1_n_n 4 rfl rfl).symm]
  refine Finset.sum_congr rfl fun k _ => ?_
  have hk := contrEquiv1_symm_val dot_S8192x4_S4x64_S8192x64_1_0_0_1_n_n 4 rfl rfl k
  have el : dot_S8192x4_S4x64_S8192x64_1_0_0_1_n_n.lhsIdx (ix2 r n)
      ((contrEquiv1 dot_S8192x4_S4x64_S8192x64_1_0_0_1_n_n 4 rfl rfl).symm k) = ix2 r k :=
    funext fun a => Fin.ext (by
      match a with
      | ⟨0, _⟩ => exact lhs_0 _ _
      | ⟨1, _⟩ => exact (lhs_1 _ _).trans hk)
  have er : dot_S8192x4_S4x64_S8192x64_1_0_0_1_n_n.rhsIdx (ix2 r n)
      ((contrEquiv1 dot_S8192x4_S4x64_S8192x64_1_0_0_1_n_n 4 rfl rfl).symm k) = ix2 k n :=
    funext fun a => Fin.ext (by
      match a with
      | ⟨0, _⟩ => exact (rhs_0 _ _).trans hk
      | ⟨1, _⟩ => exact rhs_1 _ _)
  rw [el, er]

/-! ## The layout operations at an index -/

/-- Unflattening the product: `(q, pp, n)` sits at row `128 q + pp`. -/
theorem unflatten_apply (v : FVec Ideal S8192x64 .f32) (q : Fin 64) (pp : Fin 128) (n : Fin 64) :
    shapeCast S64x128x64 v shapeCasts_S8192x64_S64x128x64 (ix3 q pp n) = v (ix2 (flat q pp) n) := by
  refine shapeCast_apply v _ _ _ ?_
  rw [Shape.rowMajor_val_two, Shape.rowMajor_val_three]
  show (128 * q.val + pp.val) * 64 + n.val = (q.val * 128 + pp.val) * 64 + n.val
  omega

/-- Flattening the features: row `128 q + pp`, feature `k` is `(q, pp, k)`. -/
theorem flatten_apply (v : FVec Ideal S64x128x4 .f32) (q : Fin 64) (pp : Fin 128) (k : Fin 4) :
    shapeCast S8192x4 v shapeCasts_S64x128x4_S8192x4 (ix2 (flat q pp) k) = v (ix3 q pp k) := by
  refine shapeCast_apply v _ _ _ ?_
  rw [Shape.rowMajor_val_two, Shape.rowMajor_val_three]
  show (q.val * 128 + pp.val) * 4 + k.val = (128 * q.val + pp.val) * 4 + k.val
  omega

/-- The features side by side: below 2 the first piece, from 2 on the second. -/
theorem feats_lo (a b : FVec Ideal S64x128x2 .f32) (q : Fin 64) (pp : Fin 128) (d : Fin 2) :
    concatenate S64x128x4 2 [⟨S64x128x2, a⟩, ⟨S64x128x2, b⟩] concatenates_S64x128x2_S64x128x2_S64x128x4_d2
      (ix3 q pp (⟨d.val, by omega⟩ : Fin 4)) = a (ix3 q pp d) :=
  concatenate_pair_apply_left (2 : Fin S64x128x4.rank) a b _ _ rfl (ix3 q pp d)
    (fun c => by match c with | ⟨0, _⟩ => rfl | ⟨1, _⟩ => rfl | ⟨2, _⟩ => rfl)

theorem feats_hi (a b : FVec Ideal S64x128x2 .f32) (q : Fin 64) (pp : Fin 128) (d : Fin 2) :
    concatenate S64x128x4 2 [⟨S64x128x2, a⟩, ⟨S64x128x2, b⟩] concatenates_S64x128x2_S64x128x2_S64x128x4_d2
      (ix3 q pp (⟨d.val + 2, by omega⟩ : Fin 4)) = b (ix3 q pp d) :=
  concatenate_pair_apply_right (2 : Fin S64x128x4.rank) a b _ _ rfl rfl (ix3 q pp d)
    (fun c hc => by
      match c with
      | ⟨0, _⟩ => rfl
      | ⟨1, _⟩ => rfl
      | ⟨2, _⟩ => exact absurd rfl hc)
    rfl

/-- The centre's offset, broadcast over multisets and points. -/
theorem offset_apply (x3 : FVec Ideal S1x64 .f32) (q : Fin 64) (pp : Fin 128) (n : Fin 64) :
    broadcastTo S64x128x64 (shapeCast S1x1x64 x3 shapeCasts_S1x64_S1x1x64) broadcasts_S1x1x64_S64x128x64 (ix3 q pp n)
      = x3 (ix2 0 n) := by
  refine (broadcastTo_apply _ _ (ix3 q pp n) (ix3 (0 : Fin 1) (0 : Fin 1) n) (fun a => ?_)).trans ?_
  · match a with
    | ⟨0, _⟩ => rfl
    | ⟨1, _⟩ => rfl
    | ⟨2, _⟩ => rfl
  · refine shapeCast_apply x3 _ _ _ ?_
    rw [Shape.rowMajor_val_two, Shape.rowMajor_val_three]
    rfl

/-- The mask, broadcast over centres. -/
theorem mask_apply (x1 : FVec Ideal S64x128 .f32) (q : Fin 64) (pp : Fin 128) (n : Fin 64) :
    broadcastTo S64x128x64 (shapeCast S64x128x1 x1 shapeCasts_S64x128_S64x128x1) broadcasts_S64x128x1_S64x128x64 (ix3 q pp n)
      = x1 (ix2 q pp) := by
  refine (broadcastTo_apply _ _ (ix3 q pp n) (ix3 q pp (0 : Fin 1)) (fun a => ?_)).trans ?_
  · match a with
    | ⟨0, _⟩ => rfl
    | ⟨1, _⟩ => rfl
    | ⟨2, _⟩ => rfl
  · refine shapeCast_apply x1 _ _ _ ?_
    rw [Shape.rowMajor_val_two, Shape.rowMajor_val_three]
    show q.val * 128 + pp.val = (q.val * 128 + pp.val) * 1 + 0
    omega

/-- The sum over the 128 points of a block, at multiset `q` and centre `n`. -/
theorem pointSum_apply (v : FVec Ideal S64x128x64 .f32) (hφ : FKind.Formats .f32)
    (hacc : (0x00000000#32 : BitVec 32) = FKind.add.neutral .f32 hφ) (q n : Fin 64) :
    multiReduction .add [1] S64x64 v 0x00000000#32 reduces_S64x128x64_S64x64 hφ hacc (ix2 q n)
      = ∑ pp : Fin 128, v (ix3 q pp n) := by
  refine (Ideal.multiReduction_add_single v 0x00000000#32 reduces_S64x128x64_S64x64 hφ hacc (ix2 q n)).trans ?_
  refine Finset.sum_congr rfl fun pp _ => congrArg v (funext fun a => Fin.ext ?_)
  match a with
  | ⟨0, _⟩ => rfl
  | ⟨1, _⟩ => rfl
  | ⟨2, _⟩ => rfl

end Cert.KernelIdeal.Payload

end
-- ==== Proof.Point.lean ====
/-
  What one grid point adds to the accumulator, at multiset `q` and centre `n`: the sum over the block's 128 points
  of `exp (0 - (quadratic form + offset)) · mask`, the quadratic form written out over its four features.
-/
import proofs.«181590_j6545530159284_2_alg».proof.Proof.Payload

noncomputable section

open scoped BigOperators

namespace Cert.KernelIdeal.Payload

open Cert.KernelIdeal Cert.KernelIdeal.Gen Idealize.ShloMosaic Idealize.ShloMosaic.ValueIdx

/-- The exponential of a block, at an index. -/
theorem exp_apply {s : Shape} (a : FVec Ideal s .f32) (i : s.Idx) : exp a i = Ideal.exp (a i) := rfl

/-- The block's partial sum: over its 128 points, the masked response with the distance as the kernel spells it. -/
def partialAt (x0 : FVec Ideal S64x128x2 .f32) (x1 : FVec Ideal S64x128 .f32) (x2 : FVec Ideal S4x64 .f32)
    (x3 : FVec Ideal S1x64 .f32) (q n : Fin 64) : EReal :=
  ∑ pp : Fin 128, Ideal.exp (Ideal.ofBits .f32 0x00000000#32
      - ((x0 (ix3 q pp 0) * x2 (ix2 0 n) + x0 (ix3 q pp 1) * x2 (ix2 1 n)
          + (x0 (ix3 q pp 0) * x0 (ix3 q pp 0)) * x2 (ix2 2 n) + (x0 (ix3 q pp 1) * x0 (ix3 q pp 1)) * x2 (ix2 3 n))
        + x3 (ix2 0 n))) * x1 (ix2 q pp)

/-- The features of point `pp` of multiset `q`, flattened, at each of the four feature positions. -/
theorem feat_at (x0 : FVec Ideal S64x128x2 .f32) (q : Fin 64) (pp : Fin 128) :
    let A : FVec Ideal S8192x4 .bf16 := truncf .bf16 (shapeCast S8192x4 (concatenate S64x128x4 2
      [⟨S64x128x2, x0⟩, ⟨S64x128x2, mulf x0 x0⟩] concatenates_S64x128x2_S64x128x2_S64x128x4_d2)
      shapeCasts_S64x128x4_S8192x4) bitsLt_bf16_f32
    A (ix2 (flat q pp) 0) = x0 (ix3 q pp 0) ∧ A (ix2 (flat q pp) 1) = x0 (ix3 q pp 1)
      ∧ A (ix2 (flat q pp) 2) = x0 (ix3 q pp 0) * x0 (ix3 q pp 0)
      ∧ A (ix2 (flat q pp) 3) = x0 (ix3 q pp 1) * x0 (ix3 q pp 1) := by
  intro A
  refine ⟨?_, ?_, ?_, ?_⟩
  · exact (flatten_apply _ q pp 0).trans (feats_lo x0 (mulf x0 x0) q pp 0)
  · exact (flatten_apply _ q pp 1).trans (feats_lo x0 (mulf x0 x0) q pp 1)
  · exact (flatten_apply _ q pp 2).trans (feats_hi x0 (mulf x0 x0) q pp 0)
  · exact (flatten_apply _ q pp 3).trans (feats_hi x0 (mulf x0 x0) q pp 1)

/-- The stored block at `(q, n)`: what the accumulator held there plus the block's partial sum. -/
theorem pay2_apply (x0 : FVec Ideal S64x128x2 .f32) (x1 : FVec Ideal S64x128 .f32) (x2 : FVec Ideal S4x64 .f32)
    (x3 : FVec Ideal S1x64 .f32) (acc : FVec Ideal S64x64 .f32) (q n : Fin 64) :
    k0_pay2 (F := Ideal) x0 x1 x2 x3 acc (ix2 q n) = acc (ix2 q n) + partialAt x0 x1 x2 x3 q n := by
  unfold k0_pay2 partialAt
  simp only [shapeCast_self]
  rw [addf_apply]
  refine congrArg (acc (ix2 q n) + ·) ((pointSum_apply _ _ _ q n).trans (Finset.sum_congr rfl fun pp _ => ?_))
  rw [mulf_apply, mask_apply, exp_apply, subf_apply, broadcast_apply, addf_apply, offset_apply, unflatten_apply,
    matmul_at, Fin.sum_univ_four]
  obtain ⟨f0, f1, f2, f3⟩ := feat_at x0 q pp
  rw [f0, f1, f2, f3]
  rfl

/-- The block stored where the run starts is zero everywhere. -/
theorem pay1_apply (y : S64x64.Idx) : k0_pay1 (F := Ideal) y = 0 := by
  unfold k0_pay1
  rw [broadcast_apply]
  exact Ideal.ofBits_zero_f32

end Cert.KernelIdeal.Payload

end
-- ==== Proof.Spec.lean ====
/-
  The function both programs compute, and the two laws that join them.

  For a batch `x : [128, 4096, 2]` of point multisets, a mask `w : [128, 4096]`, centres `c : [64, 2]` and
  sharpnesses `s : [64, 2]`, the pooled response of multiset `b` at centre `n` is

      pooled b n = Σ_p exp (-(Σ_d (c n d - x b p d)² · (s n d)²)) · w b p.

  The reference spells the squared distance as written. The kernel spells it as a quadratic form in the point:
  `Σ_k φ_k(x) · W k n + β n` with features `φ = (x₀, x₁, x₀², x₁²)`, coefficients
  `W = (-2 s₀² c₀, -2 s₁² c₁, s₀², s₁²)` and offset `β = Σ_d s_d² c_d²`; expanding the square shows the two are
  equal wherever every entry is a real number (`expand`: the step distributes products over sums, which the extended
  reals do not allow at the infinities, so it is stated for reals). The kernel also takes the sum over the 4096 points
  as 32 partial sums of 128 consecutive points; `sum_blocks` puts them back together, and needs no finiteness.
-/
import Idealize.ShloMosaic.PureOps.Ideal
import Idealize.ShloMosaic.PureOps.Ideal.Laws
import Idealize.ShloMosaic.Lib.ValueIdx

noncomputable section

open scoped BigOperators

namespace Cert.RbfPool

open Idealize.ShloMosaic Idealize.ShloMosaic.ValueIdx

/-- Row `64 r + q` of the batch: row `q` of the `r`-th block of 64 multisets. -/
abbrev rowOf (r : Fin 2) (q : Fin 64) : Fin 128 := ⟨64 * r.val + q.val, by omega⟩
/-- Point `128 s + pp`: point `pp` of the `s`-th block of 128 points. -/
abbrev ptOf (s : Fin 32) (pp : Fin 128) : Fin 4096 := ⟨128 * s.val + pp.val, by omega⟩

/-- The weighted squared distance of point `p` of multiset `b` from centre `n`. -/
def wdist (x : (⟨3, ![128, 4096, 2]⟩ : Shape).Idx → EReal) (c s : (⟨2, ![64, 2]⟩ : Shape).Idx → EReal)
    (b : Fin 128) (n : Fin 64) (p : Fin 4096) : EReal :=
  ∑ d : Fin 2, ((c (ix2 n d) - x (ix3 b p d)) * (c (ix2 n d) - x (ix3 b p d))) * (s (ix2 n d) * s (ix2 n d))

/-- One point's masked response. -/
def resp (x : (⟨3, ![128, 4096, 2]⟩ : Shape).Idx → EReal) (w : (⟨2, ![128, 4096]⟩ : Shape).Idx → EReal)
    (c s : (⟨2, ![64, 2]⟩ : Shape).Idx → EReal) (b : Fin 128) (n : Fin 64) (p : Fin 4096) : EReal :=
  Ideal.exp (-(wdist x c s b n p)) * w (ix2 b p)

/-- The pooled response: the sum of the masked responses over the multiset's points. -/
def pooled (x : (⟨3, ![128, 4096, 2]⟩ : Shape).Idx → EReal) (w : (⟨2, ![128, 4096]⟩ : Shape).Idx → EReal)
    (c s : (⟨2, ![64, 2]⟩ : Shape).Idx → EReal) : (⟨2, ![128, 64]⟩ : Shape).Idx → EReal :=
  fun i => ∑ p : Fin 4096, resp x w c s (i 0) (i 1) p

/-- The word `0xC0000000` is the real `-2`. -/
theorem ofBits_neg_two : Ideal.ofBits .f32 0xC0000000#32 = ((-2 : ℝ) : EReal) := by
  simp [Ideal.ofBits, Ideal.ieee, -EReal.coe_mul]; norm_num

/-- The quadratic form the kernel evaluates is the negated weighted squared distance, on reals: expand
    `(c - x)² s² = -2 s² c · x + s² · x² + s² c²` in each of the two coordinates. -/
theorem expand (x0 x1 c0 c1 s0 s1 : ℝ) :
    (0 : EReal) - (((x0 : EReal) * ((((-2 : ℝ) : EReal) * ((s0 : EReal) * s0)) * c0)
        + (x1 : EReal) * ((((-2 : ℝ) : EReal) * ((s1 : EReal) * s1)) * c1)
        + ((x0 : EReal) * x0) * ((s0 : EReal) * s0)
        + ((x1 : EReal) * x1) * ((s1 : EReal) * s1))
      + ((0 : EReal) + ((((s0 : EReal) * s0) * c0) * c0 + (((s1 : EReal) * s1) * c1) * c1)))
    = -((((c0 : EReal) - x0) * ((c0 : EReal) - x0)) * ((s0 : EReal) * s0)
        + (((c1 : EReal) - x1) * ((c1 : EReal) - x1)) * ((s1 : EReal) * s1)) := by
  simp only [← EReal.coe_mul, ← EReal.coe_add, ← EReal.coe_sub, ← EReal.coe_neg, ← EReal.coe_zero]
  exact congrArg _ (by ring)

/-- The same on extended reals that are known to be real, with the two words as the kernel's programs print them:
    the exponent's argument in the kernel's spelling is the negated weighted squared distance. -/
theorem quad_eq (X0 X1 C0 C1 S0 S1 : EReal) (hX0 : ∃ r : ℝ, X0 = r) (hX1 : ∃ r : ℝ, X1 = r) (hC0 : ∃ r : ℝ, C0 = r)
    (hC1 : ∃ r : ℝ, C1 = r) (hS0 : ∃ r : ℝ, S0 = r) (hS1 : ∃ r : ℝ, S1 = r) :
    Ideal.ofBits .f32 0x00000000#32 - ((X0 * ((Ideal.ofBits .f32 0xC0000000#32 * (S0 * S0)) * C0)
        + X1 * ((Ideal.ofBits .f32 0xC0000000#32 * (S1 * S1)) * C1)
        + (X0 * X0) * (S0 * S0) + (X1 * X1) * (S1 * S1))
      + (Ideal.ofBits .f32 0x00000000#32 + (((S0 * S0) * C0) * C0 + ((S1 * S1) * C1) * C1)))
    = -(((C0 - X0) * (C0 - X0)) * (S0 * S0) + ((C1 - X1) * (C1 - X1)) * (S1 * S1)) := by
  obtain ⟨x0, rfl⟩ := hX0
  obtain ⟨x1, rfl⟩ := hX1
  obtain ⟨c0, rfl⟩ := hC0
  obtain ⟨c1, rfl⟩ := hC1
  obtain ⟨s0, rfl⟩ := hS0
  obtain ⟨s1, rfl⟩ := hS1
  rw [Ideal.ofBits_zero_f32, ofBits_neg_two]
  exact expand x0 x1 c0 c1 s0 s1

/-- 32 partial sums over 128 consecutive points are the sum over the 4096 points. -/
theorem sum_blocks {M : Type*} [AddCommMonoid M] (g : Fin 4096 → M) :
    ∑ s : Fin 32, ∑ pp : Fin 128, g (ptOf s pp) = ∑ p : Fin 4096, g p := by
  rw [← Fintype.sum_prod_type']
  refine Fintype.sum_equiv (finProdFinEquiv (m := 32) (n := 128)) _ _ (fun a => ?_)
  refine congrArg g (Fin.ext ?_)
  show 128 * a.1.val + a.2.val = a.2.val + 128 * a.1.val
  omega

end Cert.RbfPool

end
-- ==== Proof.Blocks.lean ====
/-
  The input blocks of a grid point, read back to the arrays.

  The grid has 2 × 32 points; point `t = 32 r + s` works on multisets `64 r … 64 r + 63` and points
  `128 s … 128 s + 127`. So entry `(q, pp, d)` of its batch block is entry `(64 r + q, 128 s + pp, d)` of the batch, and
  entry `(q, pp)` of its mask block is entry `(64 r + q, 128 s + pp)` of the mask. The coefficient matrix and the offsets
  are staged whole at every point.
-/
import proofs.«181590_j6545530159284_2_alg».proof.Proof.Gen.KernelIdeal.Frame
import proofs.«181590_j6545530159284_2_alg».proof.Proof.Spec
import Idealize.ShloMosaic.Lib.ValueIdx

noncomputable section

namespace Cert.KernelIdeal.Blocks

open Cert.KernelIdeal Cert.KernelIdeal.Gen Cert.RbfPool Idealize.ShloMosaic Idealize.ShloMosaic.ValueIdx
open Idealize.ShloMosaic.TcCoe Idealize.SL.Sem

variable (m : (ℓ : Loc nD τ sig) → Buf (Elt Ideal) ℓ)

/-- The block indices over the grid: the batch's and the mask's blocks follow `(t / 32, t % 32)`, the two small
    operands stay at block `(0, 0)`. -/
theorem idx0 : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, _)
theorem idx1 : ∀ t : Fin cfg0.N, win0_1.index t (0 : Fin 2) = t.val / 32 ∧ win0_1.index t (1 : Fin 2) = t.val % 32 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The batch block of point `32 r + s`. -/
theorem batch_blk (c : Dev nD) (t : Fin cfg0.N) (r : Fin 2) (s : Fin 32) (ht : t.val = 32 * r.val + s.val)
    (q : Fin 64) (pp : Fin 128) (d : Fin 2) :
    iblk m c 0 t (ix3 q pp d) = m ((c : Thread nD τ).loc main_arg0) (ix3 (rowOf r q) (ptOf s pp) d) := by
  obtain ⟨e0, e1, e2⟩ := idx0 t
  show V m c main_arg0 (((cfg0.win 0).blk t).view.emb (ix3 q pp d)) = _
  rw [V_main_arg0]
  refine congrArg _ (funext fun a => Fin.ext ?_)
  match a with
  | ⟨0, _⟩ => show win0_0.index t (0 : Fin 3) * 64 + 1 * q.val = 64 * r.val + q.val; omega
  | ⟨1, _⟩ => show win0_0.index t (1 : Fin 3) * 128 + 1 * pp.val = 128 * s.val + pp.val; omega
  | ⟨2, _⟩ => show win0_0.index t (2 : Fin 3) * 2 + 1 * d.val = d.val; omega

/-- The mask block of point `32 r + s`. -/
theorem mask_blk (c : Dev nD) (t : Fin cfg0.N) (r : Fin 2) (s : Fin 32) (ht : t.val = 32 * r.val + s.val)
    (q : Fin 64) (pp : Fin 128) :
    iblk m c 1 t (ix2 q pp) = m ((c : Thread nD τ).loc main_arg1) (ix2 (rowOf r q) (ptOf s pp)) := by
  obtain ⟨e0, e1⟩ := idx1 t
  show V m c main_arg1 (((cfg0.win 1).blk t).view.emb (ix2 q pp)) = _
  rw [V_main_arg1]
  refine congrArg _ (funext fun a => Fin.ext ?_)
  match a with
  | ⟨0, _⟩ => show win0_1.index t (0 : Fin 2) * 64 + 1 * q.val = 64 * r.val + q.val; omega
  | ⟨1, _⟩ => show win0_1.index t (1 : Fin 2) * 128 + 1 * pp.val = 128 * s.val + pp.val; omega

/-- The coefficient matrix is staged whole. -/
theorem coef_blk (c : Dev nD) (t : Fin cfg0.N) (k : Fin 4) (n : Fin 64) :
    iblk m c 2 t (ix2 k n) = V m c main_v6 (ix2 k n) := by
  obtain ⟨e0, e1⟩ := idx2 t
  show V m c main_v6 (((cfg0.win 2).blk t).view.emb (ix2 k n)) = _
  refine congrArg _ (funext fun a => Fin.ext ?_)
  match a with
  | ⟨0, _⟩ => show win0_2.index t (0 : Fin 2) * 4 + 1 * k.val = k.val; omega
  | ⟨1, _⟩ => show win0_2.index t (1 : Fin 2) * 64 + 1 * n.val = n.val; omega

/-- The offsets are staged whole. -/
theorem offs_blk (c : Dev nD) (t : Fin cfg0.N) (n : Fin 64) :
    iblk m c 3 t (ix2 (0 : Fin 1) n) = V m c main_v10 (ix2 (0 : Fin 1) n) := by
  obtain ⟨e0, e1⟩ := idx3 t
  show V m c main_v10 (((cfg0.win 3).blk t).view.emb (ix2 (0 : Fin 1) n)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * n.val = n.val; omega

end Cert.KernelIdeal.Blocks

end
-- ==== Proof.HostSide.lean ====
/-
  The two small operands the host prepares before the call.

  From the centres `c` and the sharpnesses `s` (both `[64, 2]`) the host computes `s²`, then the coefficient matrix
  `W : [4, 64]` — rows 0 and 1 the transpose of `(-2 · s²) · c`, rows 2 and 3 the transpose of `s²` — and the offsets
  `β : [1, 64]`, `β n = 0 + Σ_d (s² · c) · c` at `(n, d)`. Read at an index:

      W d n = (-2 · (s n d · s n d)) · c n d,   W (d + 2) n = s n d · s n d,   β n = 0 + Σ_d ((s n d · s n d) · c n d) · c n d.
-/
import proofs.«181590_j6545530159284_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostSide

open Cert.KernelIdeal Cert.KernelIdeal.Gen Idealize.ShloMosaic Idealize.ShloMosaic.ValueIdx
open Idealize.ShloMosaic.TcCoe Idealize.SL.Sem Idealize.ShloMosaic.StableHlo

/-- The coefficient matrix, as a function of the centres and the sharpnesses. -/
def coefOf (c s : FVec Ideal S64x2 .f32) : FVec Ideal S4x64 .f32 :=
  concatenate S4x64 0
    [⟨S2x64, transpose S2x64 [1, 0] (mulf (mulf (broadcastInDim S64x2 ![] bcast_S_S64x2
        (constant (F := Ideal) S_ .f32 0xC0000000#32)) (mulf s s)) c) transposes_S64x2_S2x64_1_0⟩,
     ⟨S2x64, transpose S2x64 [1, 0] (mulf s s) transposes_S64x2_S2x64_1_0⟩]
    concatenates_S2x64_S2x64_S4x64_d0

/-- The offsets, as a function of the centres and the sharpnesses. -/
def offsOf (c s : FVec Ideal S64x2 .f32) : FVec Ideal S1x64 .f32 :=
  broadcastInDim S1x64 ![1] bcast_S64_S1x64_1
    (Host.reduceAdd (F := Ideal) (mulf (mulf (mulf s s) c) c) (constant (F := Ideal) S_ .f32 0x00000000#32)
      reducesTo_S64x2_S64_d1 h_S_)

variable (m : (ℓ : Loc nD τ sig) → Buf (Elt Ideal) ℓ)

/-- When the call is entered the coefficient buffer holds `coefOf` of the two argument arrays. -/
theorem coef_eq (c : Dev nD) :
    (V m c main_v6 : S4x64.Idx → EReal)
      = coefOf (m ((c : Thread nD τ).loc main_arg2)) (m ((c : Thread nD τ).loc main_arg3)) := by
  dsimp only [Gen.V, Gen.hostOps0]
  after_results
  rfl

/-- When the call is entered the offset buffer holds `offsOf` of the two argument arrays. -/
theorem offs_eq (c : Dev nD) :
    (V m c main_v10 : S1x64.Idx → EReal)
      = offsOf (m ((c : Thread nD τ).loc main_arg2)) (m ((c : Thread nD τ).loc main_arg3)) := by
  dsimp only [Gen.V, Gen.hostOps0]
  after_results
  rfl

/-- The scalar `-2` broadcast to `[64, 2]`, at an index. -/
theorem scale_apply (j : S64x2.Idx) :
    broadcastInDim S64x2 ![] bcast_S_S64x2 (constant (F := Ideal) S_ .f32 0xC0000000#32) j
      = Ideal.ofBits .f32 0xC0000000#32 :=
  broadcastInDim_apply _ bcast_S_S64x2 _ j ix0 (fun a => a.elim0)

/-- Rows 0 and 1 of the coefficients: the linear terms. -/
theorem coef_lo (c s : FVec Ideal S64x2 .f32) (d : Fin 2) (n : Fin 64) :
    coefOf c s (ix2 (⟨d.val, by omega⟩ : Fin 4) n)
      = (Ideal.ofBits .f32 0xC0000000#32 * (s (ix2 n d) * s (ix2 n d))) * c (ix2 n d) := by
  unfold coefOf
  refine (concatenate_pair_apply_left (s₁ := S2x64) (s₂ := S2x64) (0 : Fin S4x64.rank) _ _ _ _ rfl (ix2 d n)
    (fun b => by match b with | ⟨0, _⟩ => rfl | ⟨1, _⟩ => rfl)).trans ?_
  rw [transpose_ix2_apply, mulf_apply, mulf_apply, mulf_apply, scale_apply]

/-- Rows 2 and 3 of the coefficients: the quadratic terms. -/
theorem coef_hi (c s : FVec Ideal S64x2 .f32) (d : Fin 2) (n : Fin 64) :
    coefOf c s (ix2 (⟨d.val + 2, by omega⟩ : Fin 4) n) = s (ix2 n d) * s (ix2 n d) := by
  unfold coefOf
  refine (concatenate_pair_apply_right (s₁ := S2x64) (s₂ := S2x64) (0 : Fin S4x64.rank) _ _ _ _ rfl rfl (ix2 d n)
    (fun b hb => by
      match b with
      | ⟨0, _⟩ => exact absurd rfl hb
      | ⟨1, _⟩ => rfl)
    rfl).trans ?_
  rw [transpose_ix2_apply, mulf_apply]

/-- The offset of centre `n`. -/
theorem offs_apply (c s : FVec Ideal S64x2 .f32) (n : Fin 64) :
    offsOf c s (ix2 (0 : Fin 1) n)
      = Ideal.ofBits .f32 0x00000000#32 + ∑ d : Fin 2, ((s (ix2 n d) * s (ix2 n d)) * c (ix2 n d)) * c (ix2 n d) := by
  unfold offsOf
  refine (broadcastInDim_apply _ bcast_S64_S1x64_1 _ (ix2 (0 : Fin 1) n) (ix1 n)
    (fun a => by match a with | ⟨0, _⟩ => rfl)).trans ?_
  generalize hy : (mulf (mulf (mulf s s) c) c : FVec Ideal S64x2 .f32) = y
  simp only [Host.reduceAdd, Ideal.hostReduceAdd_def]
  rw [Ideal.hostReduceAdd_single reducesTo_S64x2_S64_d1 (by decide)]
  refine congrArg₂ (· + ·) rfl (Finset.sum_congr rfl fun d _ => ?_)
  subst hy
  refine (congrArg _ (funext fun a => Fin.ext (by match a with | ⟨0, _⟩ => rfl | ⟨1, _⟩ => rfl)) :
    _ = (mulf (mulf (mulf s s) c) c : FVec Ideal S64x2 .f32) (ix2 n d)).trans ?_
  rfl

end Cert.KernelIdeal.HostSide

end
-- ==== Proof.KernelValue.lean ====
/-
  The kernel's result array is `pooled` of the argument arrays.

  Output block `r` (multisets `64 r … 64 r + 63`) is accumulated over the run of 32 grid points `32 r … 32 r + 31`: the
  first stores zero plus its partial sum, each later one adds its partial sum to what the point before left, and the
  last is written back. So the array ends, at `(64 r + q, n)`, at `0 + Σ_{s < 32}` of point `32 r + s`'s partial sum
  at `(q, n)`. That partial sum runs over points `128 s … 128 s + 127` of multiset `64 r + q`; its summand is the
  masked response with the distance in the kernel's spelling, which equals the reference's wherever the batch, the
  centres and the sharpnesses are real (`quad_eq`). The 32 partial sums together are the sum over all 4096 points
  (`sum_blocks`).
-/
import proofs.«181590_j6545530159284_2_alg».proof.Proof.Gen.KernelIdeal.Value
import proofs.«181590_j6545530159284_2_alg».proof.Proof.Point
import proofs.«181590_j6545530159284_2_alg».proof.Proof.Blocks
import proofs.«181590_j6545530159284_2_alg».proof.Proof.HostSide

noncomputable section

open scoped BigOperators

namespace Cert.KernelIdeal.KernelValue

open Cert.KernelIdeal Cert.KernelIdeal.Gen Cert.KernelIdeal.Payload Cert.KernelIdeal.Blocks Cert.KernelIdeal.HostSide
open Cert.RbfPool Idealize.ShloMosaic Idealize.ShloMosaic.ValueIdx Idealize.ShloMosaic.TcCoe Idealize.SL.Sem

variable (m : (ℓ : Loc nD τ sig) → Buf (Elt Ideal) ℓ)

/-- The four argument arrays on core `c`: the batch, the mask, the centres, the sharpnesses. -/
abbrev batchOf (c : Dev nD) : FVec Ideal S128x4096x2 .f32 := m ((c : Thread nD τ).loc main_arg0)
abbrev maskOf (c : Dev nD) : FVec Ideal S128x4096 .f32 := m ((c : Thread nD τ).loc main_arg1)
abbrev ctrOf (c : Dev nD) : FVec Ideal S64x2 .f32 := m ((c : Thread nD τ).loc main_arg2)
abbrev shpOf (c : Dev nD) : FVec Ideal S64x2 .f32 := m ((c : Thread nD τ).loc main_arg3)

/-- Grid point `t`'s partial sum, as a function of every natural (zero past the grid). -/
def addend (c : Dev nD) (t : ℕ) (y : S64x64.Idx) : EReal :=
  if h : t < cfg0.N then
    partialAt (iblk m c 0 ⟨t, h⟩) (iblk m c 1 ⟨t, h⟩) (iblk m c 2 ⟨t, h⟩) (iblk m c 3 ⟨t, h⟩) (y 0) (y 1)
  else 0

/-- The first point of a run leaves zero plus its partial sum. -/
theorem reset_apply (c : Dev nD) (t : ℕ) (h : t < cfg0.N) (y : S64x64.Idx) :
    Value.reset4 m c t h y = 0 + addend m c t y := by
  obtain ⟨q, n, rfl⟩ : ∃ (q n : Fin 64), y = ix2 q n := ⟨y 0, y 1, eq_ix2 y⟩
  unfold Value.reset4 addend
  rw [dif_pos h]
  refine (pay2_apply (iblk m c 0 ⟨t, h⟩) (iblk m c 1 ⟨t, h⟩) (iblk m c 2 ⟨t, h⟩) (iblk m c 3 ⟨t, h⟩)
    (k0_pay1 (F := Ideal)) q n).trans ?_
  rw [pay1_apply]

/-- A later point adds its partial sum to what the point before left. -/
theorem step_apply (c : Dev nD) (t : ℕ) (h : t < cfg0.N) (acc : S64x64.Idx → EReal) (y : S64x64.Idx) :
    Value.step4 m c t h acc y = acc y + addend m c t y := by
  obtain ⟨q, n, rfl⟩ : ∃ (q n : Fin 64), y = ix2 q n := ⟨y 0, y 1, eq_ix2 y⟩
  unfold Value.step4 addend
  rw [dif_pos h]
  exact pay2_apply (iblk m c 0 ⟨t, h⟩) (iblk m c 1 ⟨t, h⟩) (iblk m c 2 ⟨t, h⟩) (iblk m c 3 ⟨t, h⟩) acc q n

/-- The run of block `r`, folded: zero plus the 32 partial sums. -/
theorem fold_apply (c : Dev nD) (r : Fin 2) (h : 32 * r.val + 31 < cfg0.N) (y : S64x64.Idx) :
    Pipeline.accAt (Value.reset4 m c) (Value.step4 m c) (32 * r.val) 31 h y
      = 0 + ∑ s ∈ Finset.range 32, addend m c (32 * r.val + s) y :=
  Pipeline.accAt_add_apply (ι := S64x64.Idx) (β := EReal) (Value.reset4 m c) (Value.step4 m c) (fun _ => 0)
    (addend m c) (32 * r.val) 31 (fun hb i => reset_apply m c _ hb i)
    (fun n hn acc i _ _ => step_apply m c n hn acc i) 31 le_rfl h y

/-- Point `32 r + s`'s partial sum at `(q, n)`, read back to the arrays: the masked responses of points
    `128 s … 128 s + 127` of multiset `64 r + q` at centre `n`. -/
theorem addend_eq (c : Dev nD)
    (hx : ∀ j, ∃ ρ : ℝ, batchOf m c j = (ρ : EReal))
    (hc : ∀ j, ∃ ρ : ℝ, ctrOf m c j = (ρ : EReal))
    (hs : ∀ j, ∃ ρ : ℝ, shpOf m c j = (ρ : EReal))
    (r : Fin 2) (s : Fin 32) (q n : Fin 64) :
    addend m c (32 * r.val + s.val) (ix2 q n)
      = ∑ pp : Fin 128, resp (batchOf m c) (maskOf m c) (ctrOf m c) (shpOf m c) (rowOf r q) n (ptOf s pp) := by
  have hN : cfg0.N = 64 := N_0
  have ht : 32 * r.val + s.val < cfg0.N := by rw [hN]; have := r.isLt; have := s.isLt; omega
  unfold addend
  rw [dif_pos ht]
  unfold partialAt
  refine Finset.sum_congr rfl fun pp _ => ?_
  have b0 := batch_blk m c ⟨_, ht⟩ r s rfl q pp 0
  have b1 := batch_blk m c ⟨_, ht⟩ r s rfl q pp 1
  have bm := mask_blk m c ⟨_, ht⟩ r s rfl q pp
  have w0 := (coef_blk m c ⟨_, ht⟩ 0 n).trans ((congrFun (coef_eq m c) _).trans (coef_lo _ _ 0 n))
  have w1 := (coef_blk m c ⟨_, ht⟩ 1 n).trans ((congrFun (coef_eq m c) _).trans (coef_lo _ _ 1 n))
  have w2 := (coef_blk m c ⟨_, ht⟩ 2 n).trans ((congrFun (coef_eq m c) _).trans (coef_hi _ _ 0 n))
  have w3 := (coef_blk m c ⟨_, ht⟩ 3 n).trans ((congrFun (coef_eq m c) _).trans (coef_hi _ _ 1 n))
  have bo := (offs_blk m c ⟨_, ht⟩ n).trans ((congrFun (offs_eq m c) _).trans (offs_apply _ _ n))
  rw [b0, b1, bm, w0, w1, w2, w3, bo, Fin.sum_univ_two]
  unfold resp wdist
  rw [Fin.sum_univ_two]
  refine congrArg (· * _) (congrArg Ideal.exp ?_)
  exact quad_eq _ _ _ _ _ _ (hx _) (hx _) (hc _) (hc _) (hs _) (hs _)

/-- The array the kernel's run ends with is `pooled` of the argument arrays, when the batch, the centres and the
    sharpnesses hold reals. -/
theorem G4_eq (c : Dev nD)
    (hx : ∀ j, ∃ ρ : ℝ, batchOf m c j = (ρ : EReal))
    (hc : ∀ j, ∃ ρ : ℝ, ctrOf m c j = (ρ : EReal))
    (hs : ∀ j, ∃ ρ : ℝ, shpOf m c j = (ρ : EReal)) :
    Value.G4 m c = pooled (batchOf m c) (maskOf m c) (ctrOf m c) (shpOf m c) := by
  funext i
  obtain ⟨b, n, rfl⟩ : ∃ (b : Fin 128) (n : Fin 64), i = ix2 b n := ⟨i 0, i 1, eq_ix2 i⟩
  obtain ⟨r, q, rfl⟩ : ∃ (r : Fin 2) (q : Fin 64), b = rowOf r q :=
    ⟨⟨b.val / 64, by have := b.isLt; omega⟩, ⟨b.val % 64, by omega⟩,
      Fin.ext (by show b.val = 64 * (b.val / 64) + b.val % 64; omega)⟩
  have hN : cfg0.N = 64 := N_0
  have hq := q.isLt
  have hr2 := r.isLt
  have hn := n.isLt
  have hr : Value.run4Of (ix2 (rowOf r q) n) = r.val := by
    show 1 * ((64 * r.val + q.val) / 64 - 0) + 1 * (n.val / 64 - 0) = r.val
    omega
  have hl : Value.loc4Of (ix2 (rowOf r q) n) = ix2 q n := funext fun a => Fin.ext (by
    match a with
    | ⟨0, _⟩ => show (64 * r.val + q.val) % 64 = q.val; omega
    | ⟨1, _⟩ => show n.val % 64 = n.val; omega)
  have hlt : 32 * r.val + 31 < cfg0.N := by rw [hN]; omega
  have same : ∀ (b b' : ℕ) (h : b + 31 < cfg0.N) (h' : b' + 31 < cfg0.N), b = b' →
      Pipeline.accAt (Value.reset4 m c) (Value.step4 m c) b 31 h
        = Pipeline.accAt (Value.reset4 m c) (Value.step4 m c) b' 31 h' := by
    intro b b' h h' e; subst e; rfl
  unfold Value.G4
  rw [dif_pos (by rw [hr]; exact hlt), hl, same _ (32 * r.val) _ hlt (by rw [hr]),
    fold_apply m c r hlt (ix2 q n), zero_add, Finset.sum_range]
  refine (Finset.sum_congr rfl fun s _ => addend_eq m c hx hc hs r s q n).trans ?_
  exact sum_blocks (fun p => resp (batchOf m c) (maskOf m c) (ctrOf m c) (shpOf m c) (rowOf r q) n p)

end Cert.KernelIdeal.KernelValue

end
-- ==== Proof.RefRead.lean ====
/-
  The reference computes `pooled`.

  Its last stage at `(b, n)` is `0 + Σ_p` of the stage before at `(b, n, p)`; that one is the product of
  `exp (-(0 + Σ_d …))` with the mask broadcast over centres; the inner summand at `(b, n, p, d)` is
  `(c - x) · (c - x) · (s · s)` with the centres and sharpnesses broadcast over multisets and points and the batch over
  centres. Each broadcast only forgets coordinates, so the composed index maps are: centres and sharpnesses at `(n, d)`,
  the batch at `(b, p, d)`, the mask at `(b, p)`.
-/
import proofs.«181590_j6545530159284_2_alg».proof.Proof.Gen.ReferenceIdeal.Read
import proofs.«181590_j6545530159284_2_alg».proof.Proof.Spec

noncomputable section

open scoped BigOperators

namespace Cert.ReferenceIdeal.RefValue

open Cert.ReferenceIdeal Cert.ReferenceIdeal.Gen Cert.ReferenceIdeal.Read Cert.RbfPool
open Idealize.ShloMosaic Idealize.ShloMosaic.ValueIdx

theorem ref_eq (x0 : FVec Ideal S128x4096x2 .f32) (x1 : FVec Ideal S128x4096 .f32) (x2 x3 : FVec Ideal S64x2 .f32) :
    val_main_v16 (F := Ideal) x0 x1 x2 x3 = pooled x0 x1 x2 x3 := by
  funext i
  obtain ⟨b, n, rfl⟩ : ∃ (b : Fin 128) (n : Fin 64), i = ix2 b n := ⟨i 0, i 1, eq_ix2 i⟩
  have ec : ∀ (p : Fin 4096) (d : Fin 2),
      idx_main_v0 (idx_main_v2 (idx_main_v10 (idx_main_v16 (ix2 b n) p) d)) = ix2 n d := fun p d =>
    funext fun a => Fin.ext (by match a with | ⟨0, _⟩ => rfl | ⟨1, _⟩ => rfl)
  have ex : ∀ (p : Fin 4096) (d : Fin 2),
      idx_main_v1 (idx_main_v3 (idx_main_v10 (idx_main_v16 (ix2 b n) p) d)) = ix3 b p d := fun p d =>
    funext fun a => Fin.ext (by match a with | ⟨0, _⟩ => rfl | ⟨1, _⟩ => rfl | ⟨2, _⟩ => rfl)
  have es : ∀ (p : Fin 4096) (d : Fin 2),
      idx_main_v7 (idx_main_v8 (idx_main_v10 (idx_main_v16 (ix2 b n) p) d)) = ix2 n d := fun p d =>
    funext fun a => Fin.ext (by match a with | ⟨0, _⟩ => rfl | ⟨1, _⟩ => rfl)
  have ew : ∀ (p : Fin 4096), idx_main_v13 (idx_main_v14 (idx_main_v16 (ix2 b n) p)) = ix2 b p := fun p =>
    funext fun a => Fin.ext (by match a with | ⟨0, _⟩ => rfl | ⟨1, _⟩ => rfl)
  rw [val_main_v16_apply]
  simp only [val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, ec, ex, es, ew,
    Ideal.ofBits_def, Ideal.mulf_def, Ideal.subf_def, Ideal.hostUnary_exp_def, Ideal.hostNegf_def, Ideal.negf_def,
    Ideal.ofBits_zero_f32, zero_add]
  rfl

end Cert.ReferenceIdeal.RefValue

end
-- ==== Proof.Finite.lean ====
/-
  The precondition says every entry of the batch, the centres and the sharpnesses is a real number.

  It is printed as a conjunction of four `all`s, one per argument, of `|entry| < +∞`. On the extended reals
  `max a (-a) < ⊤` excludes both infinities, so the entry is a real.
-/
import proofs.«181590_j6545530159284_2_alg».proof.Pre_finite_inputs
import proofs.«181590_j6545530159284_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- The word `0x7F800000` is `+∞`. -/
theorem ofBits_inf : Ideal.ofBits .f32 0x7F800000#32 = ⊤ := by
  simp [Ideal.ofBits, Ideal.ieee]

/-- An extended real whose absolute value is below `+∞` is a real. -/
theorem real_of_abs_lt (a : EReal) (h : Ideal.cmp .olt (max a (-a)) ⊤ = 1#1) : ∃ r : ℝ, a = r := by
  induction a using EReal.rec with
  | bot => simp [Ideal.cmp] at h
  | top => simp [Ideal.cmp] at h
  | coe r => exact ⟨r, rfl⟩

/-- `+∞` broadcast to any shape, at an index. -/
theorem inf_apply {s : Shape} (hb : S_.BroadcastsInDim s (![] : Fin 0 → Fin s.rank)) (j : s.Idx) :
    broadcastInDim s ![] hb (constant (F := Ideal) S_ .f32 0x7F800000#32) j = ⊤ :=
  (broadcastInDim_apply _ hb _ j ix0 (fun a => a.elim0)).trans ofBits_inf

/-- Under the precondition the batch, the centres and the sharpnesses hold reals. -/
theorem reals_of_pre (a0 : FVec Ideal S128x4096x2 .f32) (a1 : FVec Ideal S128x4096 .f32) (a2 a3 : FVec Ideal S64x2 .f32)
    (h : fn (F := Ideal) a0 a1 a2 a3 = fun _ => 1#1) :
    (∀ j, ∃ r : ℝ, a0 j = r) ∧ (∀ j, ∃ r : ℝ, a2 j = r) ∧ (∀ j, ∃ r : ℝ, a3 j = r) := by
  have h0 := congrFun h ix0
  dsimp only [fn, fn_part1] at h0
  obtain ⟨h012, h3⟩ := IntOp.andi_eq_one.1 h0
  obtain ⟨h01, h2⟩ := IntOp.andi_eq_one.1 h012
  obtain ⟨h0', -⟩ := IntOp.andi_eq_one.1 h01
  refine ⟨fun j => ?_, fun j => ?_, fun j => ?_⟩
  · have e := Host.reduce_andi_all _ _ _ _ ix0 h0' j
    exact real_of_abs_lt (a0 j) (by rw [← inf_apply Facts.bcast_S_S128x4096x2 j]; exact e)
  · have e := Host.reduce_andi_all _ _ _ _ ix0 h2 j
    exact real_of_abs_lt (a2 j) (by rw [← inf_apply Facts.bcast_S_S64x2 j]; exact e)
  · have e := Host.reduce_andi_all _ _ _ _ ix0 h3 j
    exact real_of_abs_lt (a3 j) (by rw [← inf_apply Facts.bcast_S_S64x2 j]; exact e)

end Cert.Pre_finite_inputs.Decode

end
-- ==== Proof.lean ====
/-
  The kernel computes, for 128 multisets of 4096 planar points, 64 centres and per-centre sharpnesses, the masked sum
  over a multiset's points of `exp (-(Σ_d (c - x)² s²))`. The reference evaluates the squared distance as written. The
  kernel first expands the square into a quadratic form in the point — a product of the features `(x₀, x₁, x₀², x₁²)`
  with a [4, 64] coefficient matrix, plus a per-centre offset, both prepared on the host — and accumulates the sum over
  points in 32 blocks of 128.

  At the extended reals the two agree wherever the batch, the centres and the sharpnesses are real numbers, which the
  precondition says of every input: expanding `(c - x)² s²` distributes products over sums, and that is the one step
  that fails at an infinity. Regrouping the sum over points into 32 blocks needs nothing.

  The modules: `Spec` states the common function `pooled` and the two laws; `RefRead` shows the reference's last stage
  is `pooled`; `Payload` and `Point` read one grid point's arithmetic at an output index; `Blocks` and `HostSide`
  read the point's input blocks back to the argument arrays; `KernelValue` folds the 32 points of an output block and
  joins the two spellings; `Finite` reads the precondition as "every entry is real".

  The three frame claims are the generated frame of the word-level kernel and the two value runs with the result
  forgotten; nothing was rewritten by idealization, so there is nothing to preserve.
-/
import proofs.«181590_j6545530159284_2_alg».proof.Defs
import proofs.«181590_j6545530159284_2_alg».proof.Proof.Gen.Kernel.Frame
import proofs.«181590_j6545530159284_2_alg».proof.Proof.Gen.KernelIdeal.Value
import proofs.«181590_j6545530159284_2_alg».proof.Proof.Gen.Pre_finite_inputs
import proofs.«181590_j6545530159284_2_alg».proof.Proof.Gen.ReferenceIdeal.Run
import proofs.«181590_j6545530159284_2_alg».proof.Proof.KernelValue
import proofs.«181590_j6545530159284_2_alg».proof.Proof.RefRead
import proofs.«181590_j6545530159284_2_alg».proof.Proof.Finite
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the pooled responses of the (agreeing) argument arrays: the kernel's by the fold of its
    grid points, using that the inputs are real; the reference's by reading its stages. -/
theorem algebraic_KernelIdeal_ReferenceIdeal : algebraic_KernelIdeal_ReferenceIdeal := by
  intro m ρ m' ρ' hpre hagree
  refine ⟨fun c => Cert.RbfPool.pooled (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · refine (θ_run Cert.KernelIdeal.defs _ _).mono (fun _ h c => ⟨?_, (h c).2⟩)
      (Cert.KernelIdeal.Value.run (F := Ideal) m ρ)
    obtain ⟨hx, hc, hs⟩ := Cert.Pre_finite_inputs.Decode.reals_of_pre _ _ _ _ (hpre c)
    exact (h c).1.trans (Cert.KernelIdeal.KernelValue.G4_eq m c hx hc hs)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
